-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x64 : Shape := ⟨2, ![262144, 64]⟩
abbrev S256x64 : Shape := ⟨2, ![256, 64]⟩
abbrev S_ : Shape := ⟨0, ![]⟩

class Facts : Prop where
  bcast_S_S262144x64 : S_.BroadcastsInDim S262144x64 (![] : Fin 0 → Fin S262144x64.rank)
  reducesTo_S262144x64_S_d0_1 : S262144x64.ReducesTo [0, 1] S_
  h_S_ : 0 < S_.numel
  bcast_S_S256x64 : S_.BroadcastsInDim S256x64 (![] : Fin 0 → Fin S256x64.rank)
  reducesTo_S256x64_S_d0_1 : S256x64.ReducesTo [0, 1] S_

variable [Facts]

def fn {F : FTy → Type} [FloatOps F] (main_arg0 : FVec F S262144x64 .f32) (main_arg1 : FVec F S256x64 .f32) : IVec S_ 1 :=
  let main_v0 : FVec F S262144x64 .f32 := Host.absf main_arg0
  let main_cst : FVec F S_ .f32 := constant S_ .f32 0x7F800000#32
  let main_v1 : FVec F S262144x64 .f32 := broadcastInDim S262144x64 ![] bcast_S_S262144x64 main_cst
  let main_v2 : IVec S262144x64 1 := cmpf .olt main_v0 main_v1
  let main_c : IVec S_ 1 := constantI S_ 1 1#1
  let main_v3 : IVec S_ 1 := (fun x v => Host.reduce IntOp.andi x v reducesTo_S262144x64_S_d0_1 h_S_) main_v2 main_c
  let main_v4 : FVec F S256x64 .f32 := Host.absf main_arg1
  let main_cst_0 : FVec F S_ .f32 := constant S_ .f32 0x7F800000#32
  let main_v5 : FVec F S256x64 .f32 := broadcastInDim S256x64 ![] bcast_S_S256x64 main_cst_0
  let main_v6 : IVec S256x64 1 := cmpf .olt main_v4 main_v5
  let main_c_1 : IVec S_ 1 := constantI S_ 1 1#1
  let main_v7 : IVec S_ 1 := (fun x v => Host.reduce IntOp.andi x v reducesTo_S256x64_S_d0_1 h_S_) main_v6 main_c_1
  let main_v8 : IVec S_ 1 := andi main_v3 main_v7
  main_v8
-- ==== Kernel.lean ====
abbrev S262144x64 : Shape := ⟨2, ![262144, 64]⟩
abbrev S256x64 : Shape := ⟨2, ![256, 64]⟩
abbrev S_ : Shape := ⟨0, ![]⟩
abbrev S256 : Shape := ⟨1, ![256]⟩
abbrev S256x1 : Shape := ⟨2, ![256, 1]⟩
abbrev S1x256 : Shape := ⟨2, ![1, 256]⟩
abbrev S262144x256 : Shape := ⟨2, ![262144, 256]⟩
abbrev S4096x64 : Shape := ⟨2, ![4096, 64]⟩
abbrev S4096x256 : Shape := ⟨2, ![4096, 256]⟩
abbrev S4096 : Shape := ⟨1, ![4096]⟩
abbrev S4096x1 : Shape := ⟨2, ![4096, 1]⟩

abbrev nBuf : Space → Nat
  | .hbm => 9
  | .vmem => 6
  | .smem => 0
  | _ => 0

abbrev bufTy : (tb : Table) → Fin (tcTables nBuf tb) → BufTy
  | .hbm, ⟨0, _⟩ => ⟨S262144x64, .f32⟩
  | .hbm, ⟨1, _⟩ => ⟨S256x64, .f32⟩
  | .hbm, ⟨2, _⟩ => ⟨S256x64, .bf16⟩
  | .hbm, ⟨3, _⟩ => ⟨S256x64, .f32⟩
  | .hbm, ⟨4, _⟩ => ⟨S_, .f32⟩
  | .hbm, ⟨5, _⟩ => ⟨S256, .f32⟩
  | .hbm, ⟨6, _⟩ => ⟨S256x1, .f32⟩
  | .hbm, ⟨7, _⟩ => ⟨S1x256, .f32⟩
  | .hbm, ⟨8, _⟩ => ⟨S262144x256, .f32⟩
  | .local _ .vmem, ⟨0, _⟩ => ⟨S4096x64, .f32⟩
  | .local _ .vmem, ⟨1, _⟩ => ⟨S4096x64, .f32⟩
  | .local _ .vmem, ⟨2, _⟩ => ⟨S256x64, .bf16⟩
  | .local _ .vmem, ⟨3, _⟩ => ⟨S1x256, .f32⟩
  | .local _ .vmem, ⟨4, _⟩ => ⟨S4096x256, .f32⟩
  | .local _ .vmem, ⟨5, _⟩ => ⟨S4096x256, .f32⟩
  | _, _ => ⟨S262144x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4096x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bitsLt_bf16_f32 : FTy.bits .bf16 < FTy.bits .f32
  reducesTo_S256x64_S256_d1 : S256x64.ReducesTo [1] S256
  h_S_ : 0 < S_.numel
  bcast_S256_S256x1_0 : S256.BroadcastsInDim S256x1 (![0] : Fin 1 → Fin S256x1.rank)
  transposes_S256x1_S1x256_1_0 : S256x1.Transposes [1, 0] S1x256
  inb_S4096x64_S4096x64_0_0 : ∀ a, (![0, 0] : Fin 2 → Nat) a + S4096x64.size a ≤ S4096x64.size a
  h_S4096x64 : 0 < S4096x64.numel
  inb_S256x64_S256x64_0_0 : ∀ a, (![0, 0] : Fin 2 → Nat) a + S256x64.size a ≤ S256x64.size a
  h_S256x64 : 0 < S256x64.numel
  shapeCasts_S256x64_S256x64 : S256x64.ShapeCasts S256x64
  inb_S1x256_S1x256_0_0 : ∀ a, (![0, 0] : Fin 2 → Nat) a + S1x256.size a ≤ S1x256.size a
  h_S1x256 : 0 < S1x256.numel
  shapeCasts_S1x256_S1x256 : S1x256.ShapeCasts S1x256
  reduces_S4096x64_S4096 : S4096x64.Reduces [1] S4096
  shapeCasts_S4096_S4096x1 : S4096.ShapeCasts S4096x1
  broadcasts_S4096x1_S4096x256 : S4096x1.Broadcasts S4096x256
  broadcasts_S1x256_S4096x256 : S1x256.Broadcasts S4096x256
  reduces_S4096x256_S4096 : S4096x256.Reduces [1] S4096
  inb_S4096x256_S4096x256_0_0 : ∀ a, (![0, 0] : Fin 2 → Nat) a + S4096x256.size a ≤ S4096x256.size a
  h_S4096x256 : 0 < S4096x256.numel
  dot_S4096x64_S256x64_S4096x256_1_1_0_0_n_n_wf : DotDims.WF S4096x64 S256x64 S4096x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x64.size a ≤ S262144x64.size a
  hwx0_0 : ∀ i : grid0.Coords, EltTy.bits .f32 = 32 ∨ (Rect.block (s := S262144x64) S4096x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x64.size a ≤ S256x64.size a
  hwx0_1 : ∀ i : grid0.Coords, EltTy.bits .bf16 = 32 ∨ (Rect.block (s := S256x64) S256x64.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4096x256.size a ≤ S262144x256.size a
  hwx0_3 : ∀ i : grid0.Coords, EltTy.bits .f32 = 32 ∨ (Rect.block (s := S262144x256) S4096x256.size (cc0_transform_3 i) (hinb0_3 i)).WholeWords (EltTy.packing .f32)

variable [Facts₀]

def dot_S4096x64_S256x64_S4096x256_1_1_0_0_n_n : DotDims S4096x64 S256x64 S4096x256 where
  lhsContracting := [1]
  rhsContracting := [1]
  lhsNonContracting := [0]
  rhsNonContracting := [0]
  lhsBatch := []
  rhsBatch := []
  wf := dot_S4096x64_S256x64_S4096x256_1_1_0_0_n_n_wf

abbrev win0_0 : Pipeline.Window sig grid0 :=
  Pipeline.Window.ofSpec (Memref.whole main_arg0) S4096x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S256x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S4096x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S262144x64 : Shape := ⟨2, ![262144, 64]⟩
abbrev S256x64 : Shape := ⟨2, ![256, 64]⟩
abbrev S_ : Shape := ⟨0, ![]⟩
abbrev S262144 : Shape := ⟨1, ![262144]⟩
abbrev S262144x1 : Shape := ⟨2, ![262144, 1]⟩
abbrev S256 : Shape := ⟨1, ![256]⟩
abbrev S64x256 : Shape := ⟨2, ![64, 256]⟩
abbrev S262144x256 : Shape := ⟨2, ![262144, 256]⟩
abbrev S1x256 : Shape := ⟨2, ![1, 256]⟩

abbrev nBuf : Space → Nat
  | .hbm => 36
  | .vmem => 0
  | .smem => 0
  | _ => 0

abbrev bufTy : (tb : Table) → Fin (tcTables nBuf tb) → BufTy
  | .hbm, ⟨0, _⟩ => ⟨S262144x64, .f32⟩
  | .hbm, ⟨1, _⟩ => ⟨S256x64, .f32⟩
  | .hbm, ⟨2, _⟩ => ⟨S262144x64, .f32⟩
  | .hbm, ⟨3, _⟩ => ⟨S_, .f32⟩
  | .hbm, ⟨4, _⟩ => ⟨S262144, .f32⟩
  | .hbm, ⟨5, _⟩ => ⟨S262144x1, .f32⟩
  | .hbm, ⟨6, _⟩ => ⟨S256x64, .f32⟩
  | .hbm, ⟨7, _⟩ => ⟨S_, .f32⟩
  | .hbm, ⟨8, _⟩ => ⟨S256, .f32⟩
  | .hbm, ⟨9, _⟩ => ⟨S64x256, .f32⟩
  | .hbm, ⟨10, _⟩ => ⟨S262144x256, .f32⟩
  | .hbm, ⟨11, _⟩ => ⟨S_, .f32⟩
  | .hbm, ⟨12, _⟩ => ⟨S262144x256, .f32⟩
  | .hbm, ⟨13, _⟩ => ⟨S262144x256, .f32⟩
  | .hbm, ⟨14, _⟩ => ⟨S262144x256, .f32⟩
  | .hbm, ⟨15, _⟩ => ⟨S262144x256, .f32⟩
  | .hbm, ⟨16, _⟩ => ⟨S1x256, .f32⟩
  | .hbm, ⟨17, _⟩ => ⟨S262144x256, .f32⟩
  | .hbm, ⟨18, _⟩ => ⟨S262144x256, .f32⟩
  | .hbm, ⟨19, _⟩ => ⟨S_, .f32⟩
  | .hbm, ⟨20, _⟩ => ⟨S262144x256, .f32⟩
  | .hbm, ⟨21, _⟩ => ⟨S262144x256, .f32⟩
  | .hbm, ⟨22, _⟩ => ⟨S_, .f32⟩
  | .hbm, ⟨23, _⟩ => ⟨S262144x256, .f32⟩
  | .hbm, ⟨24, _⟩ => ⟨S262144x256, .f32⟩
  | .hbm, ⟨25, _⟩ => ⟨S_, .f32⟩
  | .hbm, ⟨26, _⟩ => ⟨S262144x256, .f32⟩
  | .hbm, ⟨27, _⟩ => ⟨S262144x256, .f32⟩
  | .hbm, ⟨28, _⟩ => ⟨S_, .f32⟩
  | .hbm, ⟨29, _⟩ => ⟨S262144x256, .f32⟩
  | .hbm, ⟨30, _⟩ => ⟨S262144x256, .f32⟩
  | .hbm, ⟨31, _⟩ => ⟨S_, .f32⟩
  | .hbm, ⟨32, _⟩ => ⟨S262144, .f32⟩
  | .hbm, ⟨33, _⟩ => ⟨S262144x1, .f32⟩
  | .hbm, ⟨34, _⟩ => ⟨S262144x256, .f32⟩
  | .hbm, ⟨35, _⟩ => ⟨S262144x256, .f32⟩
  | _, _ => ⟨S262144x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩
abbrev main_cst_3 : Ref sig .tc := ⟨.hbm, 22, rfl⟩
abbrev main_v16 : Ref sig .tc := ⟨.hbm, 23, rfl⟩
abbrev main_v17 : Ref sig .tc := ⟨.hbm, 24, rfl⟩
abbrev main_cst_4 : Ref sig .tc := ⟨.hbm, 25, rfl⟩
abbrev main_v18 : Ref sig .tc := ⟨.hbm, 26, rfl⟩
abbrev main_v19 : Ref sig .tc := ⟨.hbm, 27, rfl⟩
abbrev main_cst_5 : Ref sig .tc := ⟨.hbm, 28, rfl⟩
abbrev main_v20 : Ref sig .tc := ⟨.hbm, 29, rfl⟩
abbrev main_v21 : Ref sig .tc := ⟨.hbm, 30, rfl⟩
abbrev main_cst_6 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩

abbrev nD : Nat := 1
abbrev τ : Topo := Topo.v7x

variable {F : FTy → Type} [FloatOps F]

class Facts₀ : Prop where
  reducesTo_S262144x64_S262144_d1 : S262144x64.ReducesTo [1] S262144
  h_S_ : 0 < S_.numel
  bcast_S262144_S262144x1_0 : S262144.BroadcastsInDim S262144x1 (![0] : Fin 1 → Fin S262144x1.rank)
  reducesTo_S256x64_S256_d1 : S256x64.ReducesTo [1] S256
  transposes_S256x64_S64x256_1_0 : S256x64.Transposes [1, 0] S64x256
  bcast_S_S262144x256 : S_.BroadcastsInDim S262144x256 (![] : Fin 0 → Fin S262144x256.rank)
  bcast_S262144x1_S262144x256_0_1 : S262144x1.BroadcastsInDim S262144x256 (![0, 1] : Fin 2 → Fin S262144x256.rank)
  bcast_S256_S1x256_1 : S256.BroadcastsInDim S1x256 (![1] : Fin 1 → Fin S1x256.rank)
  bcast_S1x256_S262144x256_0_1 : S1x256.BroadcastsInDim S262144x256 (![0, 1] : Fin 2 → Fin S262144x256.rank)
  reducesTo_S262144x256_S262144_d1 : S262144x256.ReducesTo [1] S262144
  dot_S262144x64_S64x256_S262144x256_1_0_0_1_n_n_wf : DotDims.WF S262144x64 S64x256 S262144x256 [1] [0] [0] [1] [] []

variable [Facts₀]

def dot_S262144x64_S64x256_S262144x256_1_0_0_1_n_n : DotDims S262144x64 S64x256 S262144x256 where
  lhsContracting := [1]
  rhsContracting := [0]
  lhsNonContracting := [0]
  rhsNonContracting := [1]
  lhsBatch := []
  rhsBatch := []
  wf := dot_S262144x64_S64x256_S262144x256_1_0_0_1_n_n_wf

class Facts : Prop extends Facts₀ where

variable [Facts]
-- ==== Proof.Spec.lean ====
/-
  Soft assignment of points to cluster centres by a Student-t kernel, on the extended reals.

  For a point `x` and centres `c j` (vectors over a finite index type `D`) both programs form the squared distance by the
  matrix-product decomposition `‖x‖² − 2·⟨x, c j⟩ + ‖c j‖²`, turn it into the weight `1 / (1 + s)`, and divide each weight by
  the sum of the point's weights over all centres. They differ in three spellings:
    • one clamps the squared distance below at zero before weighting, the other does not;
    • one raises the weight to the power one, the other leaves it;
    • one multiplies by the reciprocal of the weights' sum, the other divides by the sum.
  For finite inputs none of them changes the value: the decomposition is the sum of the squares `(x d − c j d)²`, a real number
  that is not negative, so the clamp is the identity; the weight is the positive real `(1 + s)⁻¹`, fixed by the power one; and
  a sum of positive reals is not zero, where multiplying by the reciprocal is dividing.
-/
import Idealize.ShloMosaic.PureOps.Ideal
import Idealize.ShloMosaic.Lib.IdealHost

noncomputable section

namespace Cert.Cluster

open Idealize.ShloMosaic
open scoped BigOperators

/-- The single-precision word `0x40000000` denotes the real number two. -/
theorem ofBits_two_f32 : Ideal.ofBits .f32 0x40000000#32 = 2 := by
  rw [show (2 : EReal) = ((2 : ℝ) : EReal) by norm_cast]
  simp [Ideal.ofBits, Ideal.ieee, -EReal.coe_mul]; norm_num

/-- The coercion of the reals into the extended reals commutes with finite sums. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

variable {D K : Type} [Fintype D] [Fintype K]

/-- The squared distance of `x` and `c` by the matrix-product decomposition: `‖x‖² − 2·⟨x, c⟩ + ‖c‖²`. -/
def sqd (x c : D → EReal) : EReal := (∑ d, x d * x d) - 2 * (∑ d, x d * c d) + ∑ d, c d * c d

/-- The Student-t weight of a squared distance, clamped below at zero first. -/
def wClamp (s : EReal) : EReal := Ideal.div 1 (1 + Ideal.div (max s 0) 1)

/-- The Student-t weight of a squared distance, raised to the power one. -/
def wPow (s : EReal) : EReal := Ideal.pow (Ideal.div 1 (1 + Ideal.div s 1)) 1

/-- One point's assignment to centre `j`: the clamped weight times the reciprocal of the point's weights' sum. -/
def assignMul (x : D → EReal) (c : K → D → EReal) (j : K) : EReal :=
  wClamp (sqd x (c j)) * Ideal.div 1 (∑ j', wClamp (sqd x (c j')))

/-- One point's assignment to centre `j`: the powered weight divided by the point's weights' sum. -/
def assignDiv (x : D → EReal) (c : K → D → EReal) (j : K) : EReal :=
  Ideal.div (wPow (sqd x (c j))) (∑ j', wPow (sqd x (c j')))

/-- An assignment depends only on the point's coordinates, the centres' coordinates and the centre chosen. -/
theorem assignMul_congr {x x' : D → EReal} {c c' : K → D → EReal} {j j' : K} (hx : ∀ d, x d = x' d)
    (hc : ∀ k d, c k d = c' k d) (hj : j = j') : assignMul x c j = assignMul x' c' j' := by
  obtain rfl : x = x' := funext hx
  obtain rfl : c = c' := funext fun k => funext (hc k)
  rw [hj]

/-- For real vectors the decomposition is the sum of the squared coordinate differences. -/
theorem sqd_coe (x c : D → ℝ) :
    sqd (fun d => (x d : EReal)) (fun d => (c d : EReal)) = ((∑ d, (x d - c d) ^ 2 : ℝ) : EReal) := by
  unfold sqd
  simp only [← EReal.coe_mul, ← coe_sum]
  rw [show (2 : EReal) = ((2 : ℝ) : EReal) by norm_cast, ← EReal.coe_mul, ← EReal.coe_sub, ← EReal.coe_add]
  congr 1
  rw [Finset.mul_sum, ← Finset.sum_sub_distrib, ← Finset.sum_add_distrib]
  exact Finset.sum_congr rfl fun d _ => by ring

/-- Dividing by one changes nothing. -/
theorem div_one' (s : EReal) : Ideal.div s 1 = s := by
  rw [← EReal.coe_one, Ideal.div_coe one_ne_zero, one_div, inv_one, EReal.coe_one, mul_one]

/-- The weight of a real distance `σ ≥ 0` is the real `(1 + σ)⁻¹`. -/
theorem weight_coe {σ : ℝ} (h : 0 ≤ σ) : Ideal.div 1 (1 + Ideal.div (σ : EReal) 1) = (((1 + σ)⁻¹ : ℝ) : EReal) := by
  rw [div_one', ← EReal.coe_one, ← EReal.coe_add, Ideal.div_coe (by linarith), EReal.coe_one, one_mul, one_div]

theorem wClamp_coe {σ : ℝ} (h : 0 ≤ σ) : wClamp (σ : EReal) = (((1 + σ)⁻¹ : ℝ) : EReal) := by
  unfold wClamp
  rw [max_eq_left (by exact_mod_cast h), weight_coe h]

theorem wPow_coe {σ : ℝ} (h : 0 ≤ σ) : wPow (σ : EReal) = (((1 + σ)⁻¹ : ℝ) : EReal) := by
  unfold wPow
  rw [weight_coe h, ← EReal.coe_one, Ideal.pow_coe_coe]
  exact congrArg _ (Real.rpow_one _)

/-- The two spellings of a point's assignment agree when the point and the centres are finite. -/
theorem assignMul_eq_assignDiv (x : D → EReal) (c : K → D → EReal) (hx : ∀ d, ∃ r : ℝ, x d = r)
    (hc : ∀ j d, ∃ r : ℝ, c j d = r) (j : K) : assignMul x c j = assignDiv x c j := by
  choose xr hxr using hx
  choose cr hcr using hc
  obtain rfl : x = fun d => (xr d : EReal) := funext hxr
  obtain rfl : c = fun j d => (cr j d : EReal) := funext fun j => funext (hcr j)
  have hσ : ∀ j', 0 ≤ ∑ d, (xr d - cr j' d) ^ 2 := fun j' => Finset.sum_nonneg fun d _ => sq_nonneg _
  have hk : ∀ j', wClamp (sqd (fun d => (xr d : EReal)) (fun d => (cr j' d : EReal)))
      = (((1 + ∑ d, (xr d - cr j' d) ^ 2)⁻¹ : ℝ) : EReal) := fun j' => by rw [sqd_coe, wClamp_coe (hσ j')]
  have hr : ∀ j', wPow (sqd (fun d => (xr d : EReal)) (fun d => (cr j' d : EReal)))
      = (((1 + ∑ d, (xr d - cr j' d) ^ 2)⁻¹ : ℝ) : EReal) := fun j' => by rw [sqd_coe, wPow_coe (hσ j')]
  unfold assignMul assignDiv
  simp only [hk, hr]
  refine Ideal.mul_one_div ?_
  rw [← coe_sum]
  have hpos : 0 < ∑ j', (1 + ∑ d, (xr d - cr j' d) ^ 2)⁻¹ :=
    Finset.sum_pos (fun j' _ => inv_pos.mpr (by linarith [hσ j'])) ⟨j, Finset.mem_univ j⟩
  exact_mod_cast hpos.ne'

end Cert.Cluster

end
-- ==== Proof.Finite.lean ====
/-
  The precondition, read back: when the printed predicate `finite_inputs` answers one on two arrays, every entry of both
  is a real number. The predicate is the conjunction of two `all`s of the comparison `|x| < +∞`; on the extended reals
  `|x| = max x (−x)` is below the top element exactly when `x` is neither infinity.
-/
import proofs.«146153_j84791244358066_2_alg».proof.Pre_finite_inputs
import proofs.«146153_j84791244358066_2_alg».proof.Proof.Gen.Pre_finite_inputs
import Idealize.ShloMosaic.PureOps.Ideal
import Idealize.ShloMosaic.Lib.ReduceAll
import Idealize.ShloMosaic.Lib.ValueIdx

noncomputable section

namespace Cert.Pre_finite_inputs.Hand

open Cert.Pre_finite_inputs Idealize.ShloMosaic Idealize.ShloMosaic.ValueIdx

/-- The single-precision word `0x7F800000` denotes the top element. -/
theorem ofBits_inf_f32 : Ideal.ofBits .f32 0x7F800000#32 = ⊤ := by
  simp [Ideal.ofBits, Ideal.ieee]

/-- An extended real whose absolute value compares below `+∞` is a real number. -/
theorem real_of_abs_lt_inf (x : EReal)
    (h : Ideal.cmp .olt (max x (-x)) (Ideal.ofBits .f32 0x7F800000#32) = 1#1) : ∃ r : ℝ, x = r := by
  rw [ofBits_inf_f32] at h
  induction x using EReal.rec with
  | bot => simp [Ideal.cmp] at h
  | top => simp [Ideal.cmp] at h
  | coe r => exact ⟨r, rfl⟩

instance : Subsingleton S_.Idx := ⟨fun a b => funext fun d => d.elim0⟩

/-- Under the precondition every entry of both arrays is real. -/
theorem real_of_pre (X : FVec Ideal S262144x64 .f32) (C : FVec Ideal S256x64 .f32)
    (h : fn (F := Ideal) X C = fun _ => 1#1) :
    (∀ i : S262144x64.Idx, ∃ r : ℝ, X i = r) ∧ (∀ i : S256x64.Idx, ∃ r : ℝ, C i = r) := by
  have h0 := congrFun h ix0
  dsimp only [fn] at h0
  obtain ⟨hx, hc⟩ := IntOp.andi_eq_one.1 h0
  exact ⟨fun i => real_of_abs_lt_inf _ (Host.reduce_andi_all _ _ _ _ ix0 hx i),
    fun i => real_of_abs_lt_inf _ (Host.reduce_andi_all _ _ _ _ ix0 hc i)⟩

end Cert.Pre_finite_inputs.Hand

end
-- ==== Proof.RefValue.lean ====
/-
  The reference program's result, read at one index `(n, j)`: the assignment of point `n` to centre `j` in the dividing
  spelling — row `n` of the first argument is the point, the rows of the second argument are the centres.
-/
import proofs.«146153_j84791244358066_2_alg».proof.Proof.Gen.ReferenceIdeal.Read
import proofs.«146153_j84791244358066_2_alg».proof.Proof.Spec
import Idealize.ShloMosaic.Lib.IdealHost

noncomputable section

namespace Cert.ReferenceIdeal.RefValue

open Cert.ReferenceIdeal Cert.ReferenceIdeal.Read Idealize.ShloMosaic Idealize.ShloMosaic.ValueIdx Cert.Cluster

/-- The row sums of squares of the points read row `n` of the first argument. -/
theorem idx_point_sq (n : Fin 262144) (j : Fin 256) (k : Fin 64) : idx_main_v1 (idx_main_v2 (idx_main_v9 (ix2 n j))) k = ix2 n k :=
  funext fun a => Fin.ext (by match a with | ⟨0, _⟩ => rfl | ⟨1, _⟩ => rfl)
/-- The product's left factor is row `n` of the first argument. -/
theorem idx_point (n : Fin 262144) (j : Fin 256) (k : Fin 64) : lidx_main_v6 (ix2 n j) k = ix2 n k :=
  funext fun a => Fin.ext (by match a with | ⟨0, _⟩ => rfl | ⟨1, _⟩ => rfl)
/-- The product's right factor, through the transpose, is row `j` of the second argument. -/
theorem idx_centre (n : Fin 262144) (j : Fin 256) (k : Fin 64) : idx_main_v5 (ridx_main_v6 (ix2 n j) k) = ix2 j k :=
  funext fun a => Fin.ext (by match a with | ⟨0, _⟩ => rfl | ⟨1, _⟩ => rfl)
/-- The row sums of squares of the centres read row `j` of the second argument. -/
theorem idx_centre_sq (n : Fin 262144) (j : Fin 256) (k : Fin 64) : idx_main_v4 (idx_main_v11 (idx_main_v12 (ix2 n j))) k = ix2 j k :=
  funext fun a => Fin.ext (by match a with | ⟨0, _⟩ => rfl | ⟨1, _⟩ => rfl)
/-- The normalizer at `(n, j)` sums the weights of row `n`. -/
theorem idx_norm (n : Fin 262144) (j k : Fin 256) : idx_main_v22 (idx_main_v23 (idx_main_v24 (ix2 n j))) k = ix2 n k :=
  funext fun a => Fin.ext (by match a with | ⟨0, _⟩ => rfl | ⟨1, _⟩ => rfl)

theorem result_apply (X : (⟨S262144x64, .f32⟩ : BufTy).Contents (Elt Ideal)) (C : (⟨S256x64, .f32⟩ : BufTy).Contents (Elt Ideal))
    (n : Fin 262144) (j : Fin 256) :
    val_main_v25 (F := Ideal) X C (ix2 n j)
      = assignDiv (fun d : Fin 64 => X (ix2 n d)) (fun (j' : Fin 256) (d : Fin 64) => C (ix2 j' d)) j := by
  simp only [val_main_v25_apply, val_main_v24_apply, val_main_v23_apply, val_main_v22_apply, val_main_v21_apply,
    val_main_v20_apply, val_main_v19_apply, val_main_v18_apply, val_main_v17_apply, val_main_v16_apply, val_main_v15_apply,
    val_main_v14_apply, val_main_v13_apply, val_main_v12_apply, val_main_v11_apply, val_main_v10_apply, val_main_v9_apply,
    val_main_v8_apply, val_main_v7_apply, val_main_v6_apply, val_main_v5_apply, val_main_v4_apply, val_main_v3_apply,
    val_main_v2_apply, val_main_v1_apply, val_main_v0_apply, val_main_cst_apply, val_main_cst_0_apply, val_main_cst_1_apply,
    val_main_cst_2_apply, val_main_cst_3_apply, val_main_cst_4_apply, val_main_cst_5_apply, val_main_cst_6_apply]
  simp only [idx_norm, idx_point_sq, idx_point, idx_centre, idx_centre_sq]
  simp only [Ideal.hostDivf_def, Ideal.hostPowf_def, Ideal.addf_def, Ideal.subf_def, Ideal.mulf_def, Ideal.ofBits_def,
    Ideal.ofBits_zero_f32, Ideal.ofBits_one_f32, ofBits_two_f32, zero_add]
  rfl

end Cert.ReferenceIdeal.RefValue

end
-- ==== Proof.BlockValue.lean ====
/-
  What the kernel's body computes from one block of points, read at one index.

  The body loads a block of 4096 points `x0`, the 256 centres `x1` and the centres' squared norms `x3` (one row), and stores
  one 4096 × 256 block. Entry `(p, j)` of that block is the assignment of point `p` to centre `j` in the multiplying
  spelling: the lane sums are sums over the 64 coordinates, respectively the 256 centres, the matrix product into a zero
  accumulator is the sum of the coordinates' products, and the column and row broadcasts read row `p`, respectively
  column `j`.
-/
import proofs.«146153_j84791244358066_2_alg».proof.Proof.Gen.KernelIdeal.Skeleton
import proofs.«146153_j84791244358066_2_alg».proof.Proof.Spec
import Idealize.ShloMosaic.Lib.ValueIdx
import Idealize.ShloMosaic.Lib.ValueLayout
import Idealize.ShloMosaic.Lib.Pipeline.Value
import Idealize.ShloMosaic.PureOps.Ideal.Laws
import Idealize.ShloMosaic.Lib.IdealHost

noncomputable section

namespace Cert.KernelIdeal.Hand

open Cert.KernelIdeal Idealize.ShloMosaic Idealize.ShloMosaic.ValueIdx Cert.Cluster
open Cert.KernelIdeal.Facts₀

/-! ## The layout operations of the body, read at an index -/

/-- A vector of 4096 entries cast to one column reads, at `(p, u)`, entry `p`. -/
theorem cast_col (v : FVec Ideal S4096 .f32) (p : Fin 4096) (u : Fin 1) :
    shapeCast S4096x1 v shapeCasts_S4096_S4096x1 (ix2 p u) = v (ix1 p) :=
  shapeCast_apply v shapeCasts_S4096_S4096x1 _ _ (by
    have hu : u.val = 0 := by omega
    rw [Shape.rowMajor_val_two, Shape.rowMajor_val_one]
    show p.val = p.val * 1 + u.val
    rw [hu, Nat.mul_one, Nat.add_zero])

/-- One column broadcast over 256 columns reads, at `(p, q)`, the column's entry `p`. -/
theorem bcast_col (v : FVec Ideal S4096x1 .f32) (p : Fin 4096) (q : Fin 256) :
    broadcastTo S4096x256 v broadcasts_S4096x1_S4096x256 (ix2 p q) = v (ix2 p (0 : Fin 1)) := by
  refine broadcastTo_apply v broadcasts_S4096x1_S4096x256 (ix2 p q) (ix2 p (0 : Fin 1)) fun ax => ?_
  match ax with
  | ⟨0, _⟩ =>
    show p.val = if (4096 : Nat) = 1 then 0 else p.val
    rw [if_neg (by decide)]
  | ⟨1, _⟩ => rfl

/-- One row broadcast over 4096 rows reads, at `(p, q)`, the row's entry `q`. -/
theorem bcast_row (v : FVec Ideal S1x256 .f32) (p : Fin 4096) (q : Fin 256) :
    broadcastTo S4096x256 v broadcasts_S1x256_S4096x256 (ix2 p q) = v (ix2 (0 : Fin 1) q) :=
  broadcastTo_1b_ab_apply v broadcasts_S1x256_S4096x256 p q

/-- The sum of a block of points along the coordinate axis: at point `p`, the sum over the 64 coordinates. -/
theorem rowsum64 (v : FVec Ideal S4096x64 .f32) (h : S4096x64.Reduces [1] S4096) (p : Fin 4096) :
    FloatOps.reduceAdd (F := Ideal) [1] h v (ix1 p) = ∑ k : Fin 64, v (ix2 p k) := by
  refine (Ideal.reduceAdd_single h v (ix1 p)).trans ?_
  exact Finset.sum_congr rfl fun k _ => congrArg v (funext fun a => Fin.ext (by match a with | ⟨0, _⟩ => rfl | ⟨1, _⟩ => rfl))

/-- The sum of a block of weights along the centre axis: at point `p`, the sum over the 256 centres. -/
theorem rowsum256 (v : FVec Ideal S4096x256 .f32) (h : S4096x256.Reduces [1] S4096) (p : Fin 4096) :
    FloatOps.reduceAdd (F := Ideal) [1] h v (ix1 p) = ∑ k : Fin 256, v (ix2 p k) := by
  refine (Ideal.reduceAdd_single h v (ix1 p)).trans ?_
  exact Finset.sum_congr rfl fun k _ => congrArg v (funext fun a => Fin.ext (by match a with | ⟨0, _⟩ => rfl | ⟨1, _⟩ => rfl))

/-! ## The matrix product of the points with the centres -/

/-- The left operand's index at output `i`: its row is the output's row … -/
theorem cross_lhs_0 (i : S4096x256.Idx) (q : dot_S4096x64_S256x64_S4096x256_1_1_0_0_n_n.contr.Idx) :
    (dot_S4096x64_S256x64_S4096x256_1_1_0_0_n_n.lhsIdx i q 0).val = (i 0).val := by
  unfold DotDims.lhsIdx
  rw [dif_neg (show ¬(0 : Fin S4096x64.rank) ∈ dot_S4096x64_S256x64_S4096x256_1_1_0_0_n_n.lhsBatch by decide), dif_pos (show (0 : Fin S4096x64.rank) ∈ dot_S4096x64_S256x64_S4096x256_1_1_0_0_n_n.lhsNonContracting by decide)]
  rfl
/-- … and its column the contracted coordinate. -/
theorem cross_lhs_1 (i : S4096x256.Idx) (q : dot_S4096x64_S256x64_S4096x256_1_1_0_0_n_n.contr.Idx) :
    (dot_S4096x64_S256x64_S4096x256_1_1_0_0_n_n.lhsIdx i q 1).val = (q ⟨0, by decide⟩).val :=
  dot_S4096x64_S256x64_S4096x256_1_1_0_0_n_n.lhsIdx_val_of_single rfl i q
/-- The right operand's index at output `i`: its row is the output's column … -/
theorem cross_rhs_0 (i : S4096x256.Idx) (q : dot_S4096x64_S256x64_S4096x256_1_1_0_0_n_n.contr.Idx) :
    (dot_S4096x64_S256x64_S4096x256_1_1_0_0_n_n.rhsIdx i q 0).val = (i 1).val := by
  unfold DotDims.rhsIdx
  rw [dif_neg (show ¬(0 : Fin S256x64.rank) ∈ dot_S4096x64_S256x64_S4096x256_1_1_0_0_n_n.rhsBatch by decide), dif_pos (show (0 : Fin S256x64.rank) ∈ dot_S4096x64_S256x64_S4096x256_1_1_0_0_n_n.rhsNonContracting by decide)]
  rfl
/-- … and its column the contracted coordinate. -/
theorem cross_rhs_1 (i : S4096x256.Idx) (q : dot_S4096x64_S256x64_S4096x256_1_1_0_0_n_n.contr.Idx) :
    (dot_S4096x64_S256x64_S4096x256_1_1_0_0_n_n.rhsIdx i q 1).val = (q ⟨0, by decide⟩).val :=
  dot_S4096x64_S256x64_S4096x256_1_1_0_0_n_n.rhsIdx_val_of_single rfl i q

/-- The matrix product of the points with the centres, both contracted along their coordinates, into a zero accumulator:
    at `(p, q)` the sum over the 64 coordinates of the products. -/
theorem cross_apply (l : FVec Ideal S4096x64 .bf16) (r : FVec Ideal S256x64 .bf16) (p : Fin 4096) (q : Fin 256) :
    matmul dot_S4096x64_S256x64_S4096x256_1_1_0_0_n_n none l r (constant S4096x256 .f32 0x00000000#32) (ix2 p q)
      = ∑ k : Fin 64, l (ix2 p k) * r (ix2 q k) := by
  simp only [matmul]
  rw [Ideal.matmul_constant_zero_apply, ← Equiv.sum_comp (ValueIdx.contrEquiv1 dot_S4096x64_S256x64_S4096x256_1_1_0_0_n_n 64 rfl rfl).symm]
  refine Finset.sum_congr rfl fun k _ => ?_
  have hk := ValueIdx.contrEquiv1_symm_val dot_S4096x64_S256x64_S4096x256_1_1_0_0_n_n 64 rfl rfl k
  have el : dot_S4096x64_S256x64_S4096x256_1_1_0_0_n_n.lhsIdx (ix2 p q) ((ValueIdx.contrEquiv1 dot_S4096x64_S256x64_S4096x256_1_1_0_0_n_n 64 rfl rfl).symm k) = ix2 p k := funext fun a => Fin.ext (by
    match a with
    | ⟨0, _⟩ => exact cross_lhs_0 _ _
    | ⟨1, _⟩ => exact (cross_lhs_1 _ _).trans hk)
  have er : dot_S4096x64_S256x64_S4096x256_1_1_0_0_n_n.rhsIdx (ix2 p q) ((ValueIdx.contrEquiv1 dot_S4096x64_S256x64_S4096x256_1_1_0_0_n_n 64 rfl rfl).symm k) = ix2 q k := funext fun a => Fin.ext (by
    match a with
    | ⟨0, _⟩ => exact cross_rhs_0 _ _
    | ⟨1, _⟩ => exact (cross_rhs_1 _ _).trans hk)
  rw [el, er]

/-! ## The stored block at an index -/

/-- Entry `(p, j)` of the block the body stores, when the loaded row of squared norms is the centres' own: the assignment of
    the block's point `p` to centre `j`. -/
theorem pay_apply (x0 : FVec Ideal S4096x64 .f32) (x1 : FVec Ideal S256x64 .bf16) (x3 : FVec Ideal S1x256 .f32)
    (hnorm : ∀ j : Fin 256, x3 (ix2 (0 : Fin 1) j) = ∑ d : Fin 64, x1 (ix2 j d) * x1 (ix2 j d)) (p : Fin 4096) (j : Fin 256) :
    Gen.k0_pay1 (F := Ideal) x0 x1 x3 (ix2 p j)
      = assignMul (fun d : Fin 64 => x0 (ix2 p d)) (fun (j' : Fin 256) (d : Fin 64) => x1 (ix2 j' d)) j := by
  unfold Gen.k0_pay1
  simp only [multiReduction, mulf_apply, addf_apply, subf_apply, divf_apply, maximumf_apply, broadcast_apply, truncf_apply, shapeCast_self,
    bcast_col, bcast_row, cast_col, rowsum64, rowsum256, cross_apply, hnorm]
  rw [rowsum64 (mulf x0 x0) Gen.reduces_S4096x64_S4096 p, rowsum256 _ Gen.reduces_S4096x256_S4096 p]
  simp only [mulf_apply, addf_apply, subf_apply, divf_apply, maximumf_apply, broadcast_apply, truncf_apply, shapeCast_self,
    bcast_col, bcast_row, cast_col, cross_apply, hnorm]
  rw [rowsum64 (mulf x0 x0) Gen.reduces_S4096x64_S4096]
  simp only [mulf_apply, Ideal.ofBits_def, Ideal.ofBits_zero_f32, Ideal.ofBits_one_f32, ofBits_two_f32]
  rfl

/-- The same at any index `y` of the block. -/
theorem pay_at (x0 : FVec Ideal S4096x64 .f32) (x1 : FVec Ideal S256x64 .bf16) (x3 : FVec Ideal S1x256 .f32)
    (hnorm : ∀ j : Fin 256, x3 (ix2 (0 : Fin 1) j) = ∑ d : Fin 64, x1 (ix2 j d) * x1 (ix2 j d)) (y : S4096x256.Idx) :
    Gen.k0_pay1 (F := Ideal) x0 x1 x3 y
      = assignMul (fun d : Fin 64 => x0 (ix2 (y 0 : Fin 4096) d)) (fun (j' : Fin 256) (d : Fin 64) => x1 (ix2 j' d)) (y 1 : Fin 256) := by
  obtain ⟨p, j, rfl⟩ : ∃ (p : Fin 4096) (j : Fin 256), y = ix2 p j := ⟨y 0, y 1, eq_ix2 y⟩
  exact pay_apply x0 x1 x3 hnorm p j

end Cert.KernelIdeal.Hand

end
-- ==== Proof.ArrayValue.lean ====
/-
  From the blocks to the array: what the kernel's result array holds after the run.

  The grid has 64 points. Point `t` reads rows `4096·t … 4096·t + 4095` of the points, all 256 centres and the row of the
  centres' squared norms — the latter two computed once by the host operations before the region: the centres unchanged (the
  change of format is the identity) and, per centre, the sum of its squared coordinates laid out as one row — and writes
  rows `4096·t … 4096·t + 4095` of the result. These 64 row blocks tile the result, so the array after the run is one function
  of the two arguments: entry `(n, j)` is the assignment of point `n` to centre `j`.
-/
import proofs.«146153_j84791244358066_2_alg».proof.Proof.Gen.KernelIdeal.Value
import proofs.«146153_j84791244358066_2_alg».proof.Proof.BlockValue
import Idealize.ShloMosaic.Lib.Pipeline.Value
import Idealize.ShloMosaic.Lib.StableHlo.Run
import Idealize.ShloMosaic.Lib.IdealHost
import Idealize.ShloMosaic.Lib.ValueLayout
import Idealize.ShloMosaic.Lib.Tactic

noncomputable section

open Idealize.ShloMosaic Idealize.ShloMosaic.TcCoe Idealize.SL.Sem
open Idealize.ShloMosaic.Pipeline (Dat)

namespace Cert.KernelIdeal.Hand

open Cert.KernelIdeal Cert.KernelIdeal.Gen Idealize.ShloMosaic.ValueIdx Cert.Cluster

variable (m : (ℓ : Loc nD τ sig) → Buf (Elt Ideal) ℓ) (ρ : Dev nD → PrngReg)

/-- The result as one function of the two argument arrays: entry `i` is the assignment of point `i 0` (a row of `X`) to
    centre `i 1` (a row of `C`). -/
def assignArr (X : S262144x64.Idx → EReal) (C : S256x64.Idx → EReal) : S262144x256.Idx → EReal :=
  fun i => assignMul (fun d : Fin 64 => X (ix2 (i 0 : Fin 262144) d)) (fun (j' : Fin 256) (d : Fin 64) => C (ix2 j' d)) (i 1 : Fin 256)

/-- The points: the first argument on core `c`. -/
abbrev pts (c : Dev nD) : S262144x64.Idx → EReal := m ((c : Thread nD τ).loc main_arg0)
/-- The centres: the second argument on core `c`. -/
abbrev ctr (c : Dev nD) : S256x64.Idx → EReal := m ((c : Thread nD τ).loc main_arg1)

/-! ## The host operations before the region -/

/-- The centres as the region finds them: the second argument (the change of format is the identity). -/
theorem V_centres (c : Dev nD) :
    (V m c main_v0 : S256x64.Idx → EReal) = ctr m c := by
  dsimp only [V, hostOps0]; after_results; rfl

/-- The row of squared norms as the region finds it: per centre the sum of its squared coordinates, as a column, transposed. -/
theorem V_norms (c : Dev nD) :
    (V m c main_v4 : S1x256.Idx → EReal)
      = transpose S1x256 [1, 0] (broadcastInDim S256x1 ![0] Gen.bcast_S256_S256x1_0
          (Host.reduceAdd (F := Ideal) (mulf (ctr m c) (ctr m c))
            (constant (F := Ideal) S_ .f32 0x00000000#32) Gen.reducesTo_S256x64_S256_d1 Gen.h_S_)) Gen.transposes_S256x1_S1x256_1_0 := by
  dsimp only [V, hostOps0]; after_results

/-- That row read at centre `j`. -/
theorem norms_apply (X : FVec Ideal S256x64 .f32) (u : Fin 1) (j : Fin 256) :
    transpose S1x256 [1, 0] (broadcastInDim S256x1 ![0] Gen.bcast_S256_S256x1_0
          (Host.reduceAdd (F := Ideal) (mulf X X) (constant (F := Ideal) S_ .f32 0x00000000#32) Gen.reducesTo_S256x64_S256_d1 Gen.h_S_))
        Gen.transposes_S256x1_S1x256_1_0 (ix2 u j)
      = ∑ d : Fin 64, X (ix2 j d) * X (ix2 j d) := by
  have hu : u.val = 0 := by omega
  refine (transpose_apply [1, 0] _ Gen.transposes_S256x1_S1x256_1_0 (ix2 u j) (ix2 j (0 : Fin 1)) (fun b => match b with
    | ⟨0, _⟩ => hu.symm
    | ⟨1, _⟩ => rfl)).trans ?_
  refine (broadcastInDim_apply _ Gen.bcast_S256_S256x1_0 _ (ix2 j (0 : Fin 1)) (ix1 j) (fun a => match a with
    | ⟨0, _⟩ => by show j.val = if (256 : Nat) = 1 then 0 else j.val; rw [if_neg (by decide)])).trans ?_
  rw [hostReduceAdd_apply, Ideal.hostReduceAdd_single Gen.reducesTo_S256x64_S256_d1 (by decide)]
  show Ideal.ofBits .f32 0x00000000#32 + _ = _
  rw [Ideal.ofBits_zero_f32, zero_add]
  exact Finset.sum_congr rfl fun k _ => congrArg (fun i => X i * X i) (funext fun a => Fin.ext (by match a with | ⟨0, _⟩ => rfl | ⟨1, _⟩ => rfl))

/-! ## The windows' blocks -/

theorem hz : (![0, 0] : Fin 2 → Nat) = fun _ => 0 := funext fun a => by fin_cases a <;> rfl

/-- The printed index maps over the grid: the points' window and the result's window move down one row block per point;
    the centres' and the norms' windows stay. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The points' block at grid point `t` is rows `4096·t …` of the first argument. -/
theorem points_blk (c : Dev nD) (t : Fin cfg0.N) (z : S4096x64.Idx) (k : S262144x64.Idx)
    (hk0 : (k 0).val = t.val * 4096 + (z 0).val) (hk1 : (k 1).val = (z 1).val) :
    @Eq EReal (iblk m c 0 t z) (pts m c k) := by
  obtain ⟨e00, e01, -⟩ := idx_facts t
  unfold iblk
  rw [View.read_apply]
  show V m c main_arg0 _ = _
  rw [V_main_arg0]
  refine congrArg (pts m c) (funext fun a => Fin.ext ?_)
  match a with
  | ⟨0, _⟩ => show win0_0.index t 0 * 4096 + 1 * (z 0).val = (k 0).val; rw [e00, hk0]; omega
  | ⟨1, _⟩ => show win0_0.index t 1 * 64 + 1 * (z 1).val = (k 1).val; rw [e01, hk1]; omega

/-- The centres' block at every grid point is the second argument. -/
theorem centres_blk (c : Dev nD) (t : Fin cfg0.N) (z : S256x64.Idx) :
    @Eq EReal (iblk m c 1 t z) (ctr m c z) := by
  obtain ⟨-, -, e10, e11, -⟩ := idx_facts t
  unfold iblk
  rw [View.read_apply]
  show (V m c main_v0 : S256x64.Idx → EReal) _ = _
  rw [V_centres]
  refine congrArg (ctr m c) (funext fun a => Fin.ext ?_)
  match a with
  | ⟨0, _⟩ => show win0_1.index t 0 * 256 + 1 * (z 0).val = (z 0).val; rw [e10]; omega
  | ⟨1, _⟩ => show win0_1.index t 1 * 64 + 1 * (z 1).val = (z 1).val; rw [e11]; omega

/-- The norms' block at every grid point holds, at centre `j`, the sum of that centre's squared coordinates. -/
theorem norms_blk (c : Dev nD) (t : Fin cfg0.N) (j : Fin 256) :
    @Eq EReal (iblk m c 2 t (ix2 (0 : Fin 1) j)) (∑ d : Fin 64, ctr m c (ix2 j d) * ctr m c (ix2 j d)) := by
  obtain ⟨-, -, -, -, e20, e21, -⟩ := idx_facts t
  unfold iblk
  rw [View.read_apply]
  show (V m c main_v4 : S1x256.Idx → EReal) _ = _
  rw [V_norms]
  have e : ((cfg0.win 2).blk t).view.emb (ix2 (0 : Fin 1) j) = ix2 (0 : Fin 1) j := funext fun a => Fin.ext (by
    match a with
    | ⟨0, _⟩ => show win0_2.index t 0 * 1 + 1 * 0 = 0; rw [e20]
    | ⟨1, _⟩ => show win0_2.index t 1 * 256 + 1 * j.val = j.val; rw [e21]; omega)
  rw [e]
  exact norms_apply _ 0 j

/-! ## What each grid point writes back, the cover, and the array after the run -/

/-- Grid point `t` writes back block `t` of the assignment array. -/
theorem flushed_eq (c : Dev nD) (t : Fin cfg0.N) :
    (dats m 0 c).flushed 3 t = ((cfg0.win 3).blk t).view.read (Elt Ideal) (assignArr (pts m c) (ctr m c)) := by
  rw [Value.flushed3]
  unfold out0_3
  rw [View.canon_unit_zero hz]
  simp only [View.ld_unit_zero (S := S4096x64) hz, View.ld_unit_zero (S := S256x64) hz, View.ld_unit_zero (S := S1x256) hz]
  obtain ⟨-, -, -, -, -, -, e30, e31⟩ := idx_facts t
  funext y
  show k0_pay1 (iblk m c 0 t) (iblk m c 1 t) (iblk m c 2 t) y = assignArr (pts m c) (ctr m c) (((cfg0.win 3).blk t).view.emb y)
  refine (pay_at (iblk m c 0 t) (iblk m c 1 t) (iblk m c 2 t) (fun j => ?_) y).trans ?_
  · refine (norms_blk m c t j).trans (Finset.sum_congr rfl fun d _ => ?_)
    rw [centres_blk m c t (ix2 j d)]
  · unfold assignArr
    refine assignMul_congr (fun d => ?_) (fun j' d => centres_blk m c t (ix2 j' d)) (Fin.ext ?_)
    · refine points_blk m c t _ _ ?_ ?_
      · show win0_3.index t 0 * 4096 + 1 * (y 0).val = t.val * 4096 + (y 0).val; rw [e30]; omega
      · rfl
    · show (y 1).val = win0_3.index t 1 * 256 + 1 * (y 1).val; rw [e31]; omega

/-- An index of the result is in point `t`'s block iff each coordinate is in the block's range on its axis. -/
theorem mem_blk (t : Fin cfg0.N) (i : S262144x256.Idx) :
    i ∈ ((cfg0.win 3).blk t).view.set ↔ ∀ a : Fin 2, win0_3.index t a * S4096x256.size a ≤ (i a).val
      ∧ (i a).val < win0_3.index t a * S4096x256.size a + S4096x256.size a := by
  show i ∈ ((View.whole main_v5).slice (win0_3.rect t)).set ↔ _
  rw [View.set_slice_whole, Rect.mem_set_unit]
  exact Iff.rfl

/-- Every index of the result is in the block of the point its row falls to: row `r` belongs to point `r / 4096`. -/
theorem cover (i : S262144x256.Idx) :
    ∃ t : Fin cfg0.N, (cfg0.win 3).flush t = true ∧ i ∈ ((cfg0.win 3).blk t).view.set := by
  have hi0 : (i 0).val < 262144 := (i 0).isLt
  have hi1 : (i 1).val < 256 := (i 1).isLt
  have hN : cfg0.N = 64 := N_0
  obtain ⟨t, ht⟩ : ∃ t : Fin cfg0.N, t.val = (i 0).val / 4096 := ⟨⟨(i 0).val / 4096, by rw [hN]; omega⟩, rfl⟩
  obtain ⟨-, -, -, -, -, -, e30, e31⟩ := idx_facts t
  refine ⟨t, flush0_3 t, ?_⟩
  rw [mem_blk]
  intro a
  match a with
  | ⟨0, _⟩ =>
    show win0_3.index t 0 * 4096 ≤ (i 0).val ∧ (i 0).val < win0_3.index t 0 * 4096 + 4096
    rw [e30, ht]; omega
  | ⟨1, _⟩ =>
    show win0_3.index t 1 * 256 ≤ (i 1).val ∧ (i 1).val < win0_3.index t 1 * 256 + 256
    rw [e31]; omega

/-- The result array after the run is the assignment array of the two arguments. -/
theorem final (c : Dev nD) : (dats m 0 c).arrAt 3 cfg0.N = assignArr (pts m c) (ctr m c) :=
  (dats m 0 c).arrAt_eq_of_cover 3 (assignArr (pts m c) (ctr m c)) (fun t _ => flushed_eq m c t) cover

/-- The kernel's run, read: the result at the assignment array, the arguments unchanged. -/
theorem run : θ_run defs (onTc (τ := τ) (main (F := Ideal))) ⟨m, fun _ => 0, ρ⟩ fun r => ∀ c : Dev nD,
      r.2.mem ((c : Thread nD τ).loc main_v5) = assignArr (pts m c) (ctr m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.Hand

end
-- ==== Proof.lean ====
/-
  Soft assignment of 262144 points to 256 cluster centres by a Student-t kernel: the Pallas kernel against its jnp reference,
  on the extended reals.

  Both programs compute, for point `n` (row `n` of the first argument) and centre `j` (row `j` of the second), the squared
  distance by the matrix-product decomposition `‖x‖² − 2·⟨x, c⟩ + ‖c‖²`, the weight `1 / (1 + s)`, and the weight's share of the
  point's weights over all centres. The kernel works on 64 row blocks of 4096 points, takes the centres' squared norms
  from the host as one row, clamps the squared distance below at zero, and multiplies by the reciprocal of the weights' sum;
  the reference raises the weight to the power one and divides by the sum.

    • `Proof/Spec.lean`: the two spellings of one point's assignment agree for finite inputs — the decomposition is the sum
      of the squared coordinate differences, a real that is not negative, so the clamp and the power one are the identity
      and the weights' sum is positive.
    • `Proof/BlockValue.lean`, `Proof/ArrayValue.lean`: the kernel's result array is the multiplying spelling, entry by
      entry (one block at one index; then the 64 row blocks tile the array).
    • `Proof/RefValue.lean`: the reference's result is the dividing spelling, entry by entry.
    • `Proof/Finite.lean`: under the precondition every input entry is a real number.

  The frames are the programs' generated runs; the idealization rewrote nothing, so `preserves` asks nothing.
-/
import proofs.«146153_j84791244358066_2_alg».proof.Defs
import proofs.«146153_j84791244358066_2_alg».proof.Proof.Gen.Kernel
import proofs.«146153_j84791244358066_2_alg».proof.Proof.Gen.Kernel.Skeleton
import proofs.«146153_j84791244358066_2_alg».proof.Proof.Gen.Kernel.Launch
import proofs.«146153_j84791244358066_2_alg».proof.Proof.Gen.Kernel.Points
import proofs.«146153_j84791244358066_2_alg».proof.Proof.Gen.Kernel.Frame
import proofs.«146153_j84791244358066_2_alg».proof.Proof.Gen.KernelIdeal
import proofs.«146153_j84791244358066_2_alg».proof.Proof.Gen.KernelIdeal.Skeleton
import proofs.«146153_j84791244358066_2_alg».proof.Proof.Gen.KernelIdeal.Launch
import proofs.«146153_j84791244358066_2_alg».proof.Proof.Gen.KernelIdeal.Points
import proofs.«146153_j84791244358066_2_alg».proof.Proof.Gen.KernelIdeal.Frame
import proofs.«146153_j84791244358066_2_alg».proof.Proof.Gen.ReferenceIdeal
import proofs.«146153_j84791244358066_2_alg».proof.Proof.Gen.Pre_finite_inputs
import proofs.«146153_j84791244358066_2_alg».proof.Proof.Gen.KernelIdeal.Value
import proofs.«146153_j84791244358066_2_alg».proof.Proof.Gen.ReferenceIdeal.Run
import proofs.«146153_j84791244358066_2_alg».proof.Proof.Gen.ReferenceIdeal.Read
import proofs.«146153_j84791244358066_2_alg».proof.Proof.Spec
import proofs.«146153_j84791244358066_2_alg».proof.Proof.Finite
import proofs.«146153_j84791244358066_2_alg».proof.Proof.RefValue
import proofs.«146153_j84791244358066_2_alg».proof.Proof.ArrayValue
import Idealize.ShloMosaic.Adequacy
import Idealize.ShloMosaic.Init

noncomputable section

namespace Cert.Proof

open Idealize.ShloMosaic Idealize.ShloMosaic.ValueIdx Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories that agree on the two arguments, both runs end with the assignment array: the kernel's in the
    multiplying spelling, the reference's in the dividing one, equal entry by entry because the inputs are finite. -/
theorem algebraic : Cert.algebraic_KernelIdeal_ReferenceIdeal := by
  intro m ρ m' ρ' hpre hagree
  refine ⟨fun c => Cert.KernelIdeal.Hand.assignArr (Cert.KernelIdeal.Hand.pts m c) (Cert.KernelIdeal.Hand.ctr m c),
    Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v25_eq (F := Ideal) _ _).trans ?_
  rw [(hagree c).1, (hagree c).2]
  obtain ⟨hx, hc⟩ := Cert.Pre_finite_inputs.Hand.real_of_pre _ _ (hpre c)
  funext i
  obtain ⟨n, j, rfl⟩ : ∃ (n : Fin 262144) (j : Fin 256), i = ix2 n j := ⟨i 0, i 1, eq_ix2 i⟩
  refine (Cert.ReferenceIdeal.RefValue.result_apply _ _ n j).trans ?_
  exact (Cert.Cluster.assignMul_eq_assignDiv _ _ (fun d => hx _) (fun j' d => hc _) j).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
